-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x4096x4096 : Shape := ⟨4, ![1, 3, 4096, 4096]⟩
abbrev S1x1x4096x4096 : Shape := ⟨4, ![1, 1, 4096, 4096]⟩
abbrev S_ : Shape := ⟨0, ![]⟩

class Facts : Prop where
  bcast_S_S1x3x4096x4096 : S_.BroadcastsInDim S1x3x4096x4096 (![] : Fin 0 → Fin S1x3x4096x4096.rank)
  reducesTo_S1x3x4096x4096_S_d0_1_2_3 : S1x3x4096x4096.ReducesTo [0, 1, 2, 3] S_
  h_S_ : 0 < S_.numel
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_

variable [Facts]

def fn {F : FTy → Type} [FloatOps F] (main_arg0 : FVec F S1x3x4096x4096 .f32) (main_arg1 : FVec F S1x1x4096x4096 .f32) (main_arg2 : FVec F S1x1x4096x4096 .f32) : IVec S_ 1 :=
  let main_v0 : FVec F S1x3x4096x4096 .f32 := Host.absf main_arg0
  let main_cst : FVec F S_ .f32 := constant S_ .f32 0x7F800000#32
  let main_v1 : FVec F S1x3x4096x4096 .f32 := broadcastInDim S1x3x4096x4096 ![] bcast_S_S1x3x4096x4096 main_cst
  let main_v2 : IVec S1x3x4096x4096 1 := cmpf .olt main_v0 main_v1
  let main_c : IVec S_ 1 := constantI S_ 1 1#1
  let main_v3 : IVec S_ 1 := (fun x v => Host.reduce IntOp.andi x v reducesTo_S1x3x4096x4096_S_d0_1_2_3 h_S_) main_v2 main_c
  let main_v4 : FVec F S1x1x4096x4096 .f32 := Host.absf main_arg1
  let main_cst_0 : FVec F S_ .f32 := constant S_ .f32 0x7F800000#32
  let main_v5 : FVec F S1x1x4096x4096 .f32 := broadcastInDim S1x1x4096x4096 ![] bcast_S_S1x1x4096x4096 main_cst_0
  let main_v6 : IVec S1x1x4096x4096 1 := cmpf .olt main_v4 main_v5
  let main_c_1 : IVec S_ 1 := constantI S_ 1 1#1
  let main_v7 : IVec S_ 1 := (fun x v => Host.reduce IntOp.andi x v reducesTo_S1x1x4096x4096_S_d0_1_2_3 h_S_) main_v6 main_c_1
  let main_v8 : IVec S_ 1 := andi main_v3 main_v7
  let main_v9 : FVec F S1x1x4096x4096 .f32 := Host.absf main_arg2
  let main_cst_2 : FVec F S_ .f32 := constant S_ .f32 0x7F800000#32
  let main_v10 : FVec F S1x1x4096x4096 .f32 := broadcastInDim S1x1x4096x4096 ![] bcast_S_S1x1x4096x4096 main_cst_2
  let main_v11 : IVec S1x1x4096x4096 1 := cmpf .olt main_v9 main_v10
  let main_c_3 : IVec S_ 1 := constantI S_ 1 1#1
  let main_v12 : IVec S_ 1 := (fun x v => Host.reduce IntOp.andi x v reducesTo_S1x1x4096x4096_S_d0_1_2_3 h_S_) main_v11 main_c_3
  let main_v13 : IVec S_ 1 := andi main_v8 main_v12
  main_v13
-- ==== Kernel.lean ====
abbrev S1x3x4096x4096 : Shape := ⟨4, ![1, 3, 4096, 4096]⟩
abbrev S1x1x4096x4096 : Shape := ⟨4, ![1, 1, 4096, 4096]⟩
abbrev S3x4096x4096 : Shape := ⟨3, ![3, 4096, 4096]⟩
abbrev S1x4096x4096 : Shape := ⟨3, ![1, 4096, 4096]⟩
abbrev S3x128x4096 : Shape := ⟨3, ![3, 128, 4096]⟩
abbrev S1x128x4096 : Shape := ⟨3, ![1, 128, 4096]⟩
abbrev S128x4096 : Shape := ⟨2, ![128, 4096]⟩

abbrev nBuf : Space → Nat
  | .hbm => 8
  | .vmem => 8
  | .smem => 0
  | _ => 0

abbrev bufTy : (tb : Table) → Fin (tcTables nBuf tb) → BufTy
  | .hbm, ⟨0, _⟩ => ⟨S1x3x4096x4096, .f32⟩
  | .hbm, ⟨1, _⟩ => ⟨S1x1x4096x4096, .f32⟩
  | .hbm, ⟨2, _⟩ => ⟨S1x1x4096x4096, .f32⟩
  | .hbm, ⟨3, _⟩ => ⟨S3x4096x4096, .f32⟩
  | .hbm, ⟨4, _⟩ => ⟨S1x4096x4096, .f32⟩
  | .hbm, ⟨5, _⟩ => ⟨S1x4096x4096, .f32⟩
  | .hbm, ⟨6, _⟩ => ⟨S3x4096x4096, .f32⟩
  | .hbm, ⟨7, _⟩ => ⟨S1x3x4096x4096, .f32⟩
  | .local _ .vmem, ⟨0, _⟩ => ⟨S3x128x4096, .f32⟩
  | .local _ .vmem, ⟨1, _⟩ => ⟨S3x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S3x128x4096, .f32⟩
  | .local _ .vmem, ⟨7, _⟩ => ⟨S3x128x4096, .f32⟩
  | _, _ => ⟨S1x3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x3x4096x4096_S3x4096x4096 : S1x3x4096x4096.ShapeCasts S3x4096x4096
  shapeCasts_S1x1x4096x4096_S1x4096x4096 : S1x1x4096x4096.ShapeCasts S1x4096x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S3x128x4096_S1x128x4096_0_0_0 : ∀ a, (![0, 0, 0] : Fin 3 → Nat) a + S1x128x4096.size a ≤ S3x128x4096.size a
  shapeCasts_S128x4096_S1x128x4096 : S128x4096.ShapeCasts S1x128x4096
  inb_S3x128x4096_S1x128x4096_1_0_0 : ∀ a, (![1, 0, 0] : Fin 3 → Nat) a + S1x128x4096.size a ≤ S3x128x4096.size a
  inb_S3x128x4096_S1x128x4096_2_0_0 : ∀ a, (![2, 0, 0] : Fin 3 → Nat) a + S1x128x4096.size a ≤ S3x128x4096.size a
  bcast_S3x4096x4096_S1x3x4096x4096_1_2_3 : S3x4096x4096.BroadcastsInDim S1x3x4096x4096 (![1, 2, 3] : Fin 3 → Fin S1x3x4096x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128x4096.size a ≤ S3x4096x4096.size a
  hwx0_0 : ∀ i : grid0.Coords, EltTy.bits .f32 = 32 ∨ (Rect.block (s := S3x4096x4096) S3x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S1x4096x4096.size a
  hwx0_1 : ∀ i : grid0.Coords, EltTy.bits .f32 = 32 ∨ (Rect.block (s := S1x4096x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S1x4096x4096.size a
  hwx0_2 : ∀ i : grid0.Coords, EltTy.bits .f32 = 32 ∨ (Rect.block (s := S1x4096x4096) S1x128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x128x4096.size a ≤ S3x4096x4096.size a
  hwx0_3 : ∀ i : grid0.Coords, EltTy.bits .f32 = 32 ∨ (Rect.block (s := S3x4096x4096) S3x128x4096.size (cc0_transform_3 i) (hinb0_3 i)).WholeWords (EltTy.packing .f32)

variable [Facts₀]

abbrev win0_0 : Pipeline.Window sig grid0 :=
  Pipeline.Window.ofSpec (Memref.whole main_v0) S3x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S1x3x4096x4096 : Shape := ⟨4, ![1, 3, 4096, 4096]⟩
abbrev S1x1x4096x4096 : Shape := ⟨4, ![1, 1, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x3x4096x4096, .f32⟩
  | .hbm, ⟨1, _⟩ => ⟨S1x1x4096x4096, .f32⟩
  | .hbm, ⟨2, _⟩ => ⟨S1x1x4096x4096, .f32⟩
  | .hbm, ⟨3, _⟩ => ⟨S1x3x4096x4096, .f32⟩
  | .hbm, ⟨4, _⟩ => ⟨S1x3x4096x4096, .f32⟩
  | .hbm, ⟨5, _⟩ => ⟨S_, .f32⟩
  | .hbm, ⟨6, _⟩ => ⟨S1x3x4096x4096, .f32⟩
  | .hbm, ⟨7, _⟩ => ⟨S1x3x4096x4096, .f32⟩
  | .hbm, ⟨8, _⟩ => ⟨S1x3x4096x4096, .f32⟩
  | .hbm, ⟨9, _⟩ => ⟨S1x3x4096x4096, .f32⟩
  | _, _ => ⟨S1x3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S1x1x4096x4096_S1x3x4096x4096_0_1_2_3 : S1x1x4096x4096.BroadcastsInDim S1x3x4096x4096 (![0, 1, 2, 3] : Fin 4 → Fin S1x3x4096x4096.rank)
  bcast_S_S1x3x4096x4096 : S_.BroadcastsInDim S1x3x4096x4096 (![] : Fin 0 → Fin S1x3x4096x4096.rank)

variable [Facts₀]

class Facts : Prop extends Facts₀ where

variable [Facts]
-- ==== Proof.Spec.lean ====
/-
  The function both programs compute, for any float arithmetic.

  An array `x` of 3 planes of 4096 × 4096 entries (an image of three colour planes, say), and two one-plane maps
  `k` and `p` of any values.  Every entry of every plane becomes

      max (x + k, 0) + p

  with `k` and `p` read at the entry's row and column, whatever the plane.  It is stated three times, over the three
  index sets it is met at: the whole image with its unit batch axis ([1, 3, 4096, 4096]), the three planes
  without it ([3, 4096, 4096]), and one strip of 128 rows of the three planes ([3, 128, 4096]).  Nothing here
  depends on the arithmetic: only on which entries an entry is computed from.
-/
import Idealize.ShloMosaic.PureOps
import Idealize.ShloMosaic.Lib.ValueIdx

noncomputable section

namespace Cert.SaltPepper

open Idealize.ShloMosaic Idealize.ShloMosaic.ValueIdx

variable {F : FTy → Type} [FloatOps F]

/-- One entry: add the first map's value, clamp below at zero, add the second map's value. -/
def pixel (x k p : F .f32) : F .f32 :=
  FloatOps.addf (FloatOps.maximumf (FloatOps.addf x k) (FloatOps.ofBits .f32 0x00000000#32)) p

/-- The image with its batch axis, the three planes, a strip of 128 rows of them; and the one-plane maps likewise. -/
abbrev Img : Shape := ⟨4, ![1, 3, 4096, 4096]⟩
abbrev Map : Shape := ⟨4, ![1, 1, 4096, 4096]⟩
abbrev Planes : Shape := ⟨3, ![3, 4096, 4096]⟩
abbrev Plane : Shape := ⟨3, ![1, 4096, 4096]⟩
abbrev Strips : Shape := ⟨3, ![3, 128, 4096]⟩
abbrev Strip : Shape := ⟨3, ![1, 128, 4096]⟩

/-- The position of an image entry in a one-plane map: its row and column, colour forgotten. -/
def Img.pos (i : Img.Idx) : Map.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩

/-- The same for an entry of the three planes, -/
def Planes.pos (i : Planes.Idx) : Plane.Idx := fun a => match a with
  | ⟨0, _⟩ => ⟨0, Nat.one_pos⟩
  | ⟨1, _⟩ => ⟨(i 1).val, (i 1).isLt⟩
  | ⟨2, _⟩ => ⟨(i 2).val, (i 2).isLt⟩

/-- and for an entry of a strip. -/
def Strips.pos (y : Strips.Idx) : Strip.Idx := fun a => match a with
  | ⟨0, _⟩ => ⟨0, Nat.one_pos⟩
  | ⟨1, _⟩ => ⟨(y 1).val, (y 1).isLt⟩
  | ⟨2, _⟩ => ⟨(y 2).val, (y 2).isLt⟩

/-- The whole result: every entry of the image from the entry itself and the two maps at its position. -/
def image (x : Img.Idx → F .f32) (k p : Map.Idx → F .f32) : Img.Idx → F .f32 :=
  fun i => pixel (x i) (k (Img.pos i)) (p (Img.pos i))

/-- The same on the three planes, the batch axis dropped from all three arrays. -/
def planes (x : Planes.Idx → F .f32) (k p : Plane.Idx → F .f32) : Planes.Idx → F .f32 :=
  fun i => pixel (x i) (k (Planes.pos i)) (p (Planes.pos i))

/-- The same on one strip of rows. -/
def strips (x : Strips.Idx → F .f32) (k p : Strip.Idx → F .f32) : Strips.Idx → F .f32 :=
  fun y => pixel (x y) (k (Strips.pos y)) (p (Strips.pos y))

/-- An image entry without its batch coordinate. -/
def Img.drop (i : Img.Idx) : Planes.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- A map entry without its batch coordinate. -/
def Map.drop (i : Map.Idx) : Plane.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- Dropping the batch axis and then forgetting the colour is forgetting the colour and then dropping the batch axis. -/
theorem pos_drop (i : Img.Idx) : Planes.pos (Img.drop i) = Map.drop (Img.pos i) := by
  funext a
  match a with
  | ⟨0, _⟩ => rfl
  | ⟨1, _⟩ => rfl
  | ⟨2, _⟩ => rfl

/-- The image is its three planes: when `x'`, `k'`, `p'` are `x`, `k`, `p` without their batch axes, the planes'
    result at an entry without its batch coordinate is the image's at the entry. -/
theorem planes_drop (x : Img.Idx → F .f32) (k p : Map.Idx → F .f32)
    (x' : Planes.Idx → F .f32) (k' p' : Plane.Idx → F .f32)
    (hx : ∀ i, x' (Img.drop i) = x i) (hk : ∀ i, k' (Map.drop i) = k i) (hp : ∀ i, p' (Map.drop i) = p i)
    (i : Img.Idx) : planes x' k' p' (Img.drop i) = image x k p i := by
  unfold planes image
  rw [pos_drop, hx, hk, hp]

end Cert.SaltPepper

end
-- ==== Proof.Strip.lean ====
/-
  What the kernel's body leaves in its output strip.

  The body works on one strip of 128 rows: the three planes of `x` as a [3, 128, 4096] block and the two maps as
  [1, 128, 4096] blocks.  Plane by plane it loads the plane, views it and the two maps as [128, 4096] matrices,
  computes `max (x + k, 0) + p` on them, views the result as a [1, 128, 4096] block again and stores it as that
  plane of the output strip.  The two changes of view cancel, so each stored plane is `SaltPepper.pixel` entry by
  entry; the three stored planes tile the strip, so the strip is `SaltPepper.strips` of the three input blocks.
-/
import proofs.«173994_j57543971831865_2_alg».proof.Proof.Gen.KernelIdeal.Frame
import proofs.«173994_j57543971831865_2_alg».proof.Proof.Spec
import Idealize.ShloMosaic.Lib.Pipeline.Value

noncomputable section

namespace Cert.KernelIdeal.StripValue

open Cert.KernelIdeal Cert.KernelIdeal.Gen Cert.SaltPepper Idealize.ShloMosaic

variable {F : FTy → Type} [FloatOps F]

/-- Viewing a [1, 128, 4096] block as a matrix and back changes nothing. -/
theorem back (v : Vec F S1x128x4096 .f32) (h : S1x128x4096.ShapeCasts S128x4096) (h' : S128x4096.ShapeCasts S1x128x4096)
    (x : S1x128x4096.Idx) : shapeCast S1x128x4096 (shapeCast S128x4096 v h) h' x = v x :=
  congrFun (shapeCast_shapeCast v h h') x

/-- The first stored plane, entry by entry: `k`, `p` the two maps' blocks and `x` the plane loaded. -/
theorem plane0 (k p x : Vec F S1x128x4096 .f32) (y : S1x128x4096.Idx) :
    k0_pay4 k p x y = pixel (x y) (k y) (p y) := by
  show FloatOps.addf (FloatOps.maximumf (FloatOps.addf (shapeCast S1x128x4096 (shapeCast S128x4096 x _) _ y)
      (shapeCast S1x128x4096 (shapeCast S128x4096 k _) _ y)) (FloatOps.ofBits .f32 0x00000000#32))
      (shapeCast S1x128x4096 (shapeCast S128x4096 p _) _ y) = _
  rw [back, back, back]
  rfl

/-- The second, -/
theorem plane1 (k p x : Vec F S1x128x4096 .f32) (y : S1x128x4096.Idx) :
    k0_pay5 k p x y = pixel (x y) (k y) (p y) := by
  show FloatOps.addf (FloatOps.maximumf (FloatOps.addf (shapeCast S1x128x4096 (shapeCast S128x4096 x _) _ y)
      (shapeCast S1x128x4096 (shapeCast S128x4096 k _) _ y)) (FloatOps.ofBits .f32 0x00000000#32))
      (shapeCast S1x128x4096 (shapeCast S128x4096 p _) _ y) = _
  rw [back, back, back]
  rfl

/-- and the third (its last change of view is a payload of its own). -/
theorem plane2 (k p x : Vec F S1x128x4096 .f32) (y : S1x128x4096.Idx) :
    k0_pay1 (k0_pay6 k p x) y = pixel (x y) (k y) (p y) := by
  show FloatOps.addf (FloatOps.maximumf (FloatOps.addf (shapeCast S1x128x4096 (shapeCast S128x4096 x _) _ y)
      (shapeCast S1x128x4096 (shapeCast S128x4096 k _) _ y)) (FloatOps.ofBits .f32 0x00000000#32))
      (shapeCast S1x128x4096 (shapeCast S128x4096 p _) _ y) = _
  rw [back, back, back]
  rfl

/-- An entry of plane `c` of a strip sits at its own row and column: forgetting the plane gives the entry back. -/
theorem pos_plane (c : ℕ) (inb : ∀ a, (![c, 0, 0] : Fin 3 → ℕ) a + S1x128x4096.size a ≤ S3x128x4096.size a)
    (x : S1x128x4096.Idx) :
    Strips.pos ((Rect.unit (s := S3x128x4096) ![c, 0, 0] S1x128x4096.size inb).emb x) = x := by
  funext a
  apply Fin.ext
  match a with
  | ⟨0, _⟩ =>
    show 0 = (x 0).val
    have h : (x 0).val < 1 := (x 0).isLt
    omega
  | ⟨1, _⟩ => show 0 + 1 * (x 1).val = (x 1).val; omega
  | ⟨2, _⟩ => show 0 + 1 * (x 2).val = (x 2).val; omega

theorem zeros : (![0, 0, 0] : Fin 3 → ℕ) = fun _ => 0 := funext fun a => by fin_cases a <;> rfl

/-- A load of a whole [1, 128, 4096] block reads the block. -/
theorem whole_map (v : Vec F S1x128x4096 .f32) (x : S1x128x4096.Idx) : View.ld v r0_0 x = v x :=
  congrFun (View.ld_unit_zero (S := S1x128x4096) zeros _ v) x

/-- The output strip after the body: its three stored planes tile it, and each is the specification's strip read
    on that plane. -/
theorem strip_eq (x : Vec F S3x128x4096 .f32) (k p : Vec F S1x128x4096 .f32) :
    out0_3 x k p = strips x k p := by
  funext y
  unfold out0_3
  refine View.canon_apply_of_pieces (strips x k p) _ ?_ y (cover0_3 _ _ _ y)
  intro pc hpc z
  simp only [List.mem_cons, List.mem_nil_iff, or_false] at hpc
  rcases hpc with rfl | rfl | rfl
  · show k0_pay1 (k0_pay6 (View.ld k r0_0) (View.ld p r0_0) (View.ld x r0_3)) z = strips x k p (r0_3.emb z)
    rw [plane2, whole_map, whole_map]
    unfold strips
    rw [pos_plane]
    rfl
  · show k0_pay5 (View.ld k r0_0) (View.ld p r0_0) (View.ld x r0_2) z = strips x k p (r0_2.emb z)
    rw [plane1, whole_map, whole_map]
    unfold strips
    rw [pos_plane]
    rfl
  · show k0_pay4 (View.ld k r0_0) (View.ld p r0_0) (View.ld x r0_1) z = strips x k p (r0_1.emb z)
    rw [plane0, whole_map, whole_map]
    unfold strips
    rw [pos_plane]
    rfl

end Cert.KernelIdeal.StripValue

end
-- ==== Proof.Planes.lean ====
/-
  From strips to the three planes.

  The grid has 2 × 16 points; point (g, s) works on strip 16·g + s of all four windows: rows 128·(16·g + s) to
  128·(16·g + s) + 127 of every plane of `x`, of the two maps and of the output.  So at every point the three
  input blocks are the restrictions of the three arrays to the output block's rows, what the point writes back
  — `SaltPepper.strips` of those blocks — is the restriction of `SaltPepper.planes` of the whole arrays to the
  block, and since the 32 strips cover all 4096 rows the output array ends as `SaltPepper.planes` of the arrays
  the region was entered with.
-/
import proofs.«173994_j57543971831865_2_alg».proof.Proof.Strip

noncomputable section

namespace Cert.KernelIdeal.PlanesValue

open Cert.KernelIdeal Cert.KernelIdeal.Gen Cert.SaltPepper Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The four windows' block indices at a grid point, decided over the 32 points: all four are (0, strip, 0) with one
    strip number, below 32. -/
theorem idx_facts : ∀ t : Fin cfg0.N,
    win0_3.index t (0 : Fin 3) = 0 ∧ win0_3.index t (2 : Fin 3) = 0 ∧ win0_3.index t (1 : Fin 3) ≤ 31
    ∧ win0_0.index t (0 : Fin 3) = 0 ∧ win0_0.index t (1 : Fin 3) = win0_3.index t (1 : Fin 3) ∧ win0_0.index t (2 : Fin 3) = 0
    ∧ win0_1.index t (0 : Fin 3) = 0 ∧ win0_1.index t (1 : Fin 3) = win0_3.index t (1 : Fin 3) ∧ win0_1.index t (2 : Fin 3) = 0
    ∧ win0_2.index t (0 : Fin 3) = 0 ∧ win0_2.index t (1 : Fin 3) = win0_3.index t (1 : Fin 3) ∧ win0_2.index t (2 : Fin 3) = 0 :=
  (by decide +kernel : ∀ t : Fin grid0.N, _)

/-- Every strip is some point's. -/
theorem idx_onto : ∀ q : Fin 32, ∃ t : Fin cfg0.N, win0_3.index t (1 : Fin 3) = q.val :=
  (by decide +kernel : ∀ q : Fin 32, ∃ t : Fin grid0.N, win0_3.index t (1 : Fin 3) = q.val)

/-- What point `t` writes back is the output block's part of `planes` of the arrays the region finds. -/
theorem flushed_eq (c : Dev nD) (t : Fin cfg0.N) :
    (dats m 0 c).flushed 3 t
      = ((cfg0.win 3).blk t).view.read (Elt F) (planes (V m c main_v0) (V m c main_v1) (V m c main_v2)) := by
  show (cfg0.win 3).cut (grid0.coords t) ((dats m 0 c).after 3 t) = _
  rw [after0_3, StripValue.strip_eq]
  obtain ⟨e30, e32, -, e00, e01, e02, e10, e11, e12, e20, e21, e22⟩ := idx_facts t
  funext j
  show pixel (V m c main_v0 (((cfg0.win 0).blk t).view.emb j))
        (V m c main_v1 (((cfg0.win 1).blk t).view.emb (Strips.pos j)))
        (V m c main_v2 (((cfg0.win 2).blk t).view.emb (Strips.pos j)))
      = pixel (V m c main_v0 (((cfg0.win 3).blk t).view.emb j))
        (V m c main_v1 (Planes.pos (((cfg0.win 3).blk t).view.emb j)))
        (V m c main_v2 (Planes.pos (((cfg0.win 3).blk t).view.emb j)))
  have h0 : ((cfg0.win 0).blk t).view.emb j = ((cfg0.win 3).blk t).view.emb j := by
    funext a; apply Fin.ext
    match a with
    | ⟨0, _⟩ => show win0_0.index t (0 : Fin 3) * 3 + 1 * (j 0).val = win0_3.index t (0 : Fin 3) * 3 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 4096 + 1 * (j 2).val = win0_3.index t (2 : Fin 3) * 4096 + 1 * (j 2).val; omega
  have h1 : ((cfg0.win 1).blk t).view.emb (Strips.pos j) = Planes.pos (((cfg0.win 3).blk t).view.emb j) := by
    funext a; apply Fin.ext
    match a with
    | ⟨0, _⟩ => show win0_1.index t (0 : Fin 3) * 1 + 1 * 0 = 0; omega
    | ⟨1, _⟩ => show win0_1.index t (1 : Fin 3) * 128 + 1 * (j 1).val = win0_3.index t (1 : Fin 3) * 128 + 1 * (j 1).val; omega
    | ⟨2, _⟩ => show win0_1.index t (2 : Fin 3) * 4096 + 1 * (j 2).val = win0_3.index t (2 : Fin 3) * 4096 + 1 * (j 2).val; omega
  have h2 : ((cfg0.win 2).blk t).view.emb (Strips.pos j) = Planes.pos (((cfg0.win 3).blk t).view.emb j) := by
    funext a; apply Fin.ext
    match a with
    | ⟨0, _⟩ => show win0_2.index t (0 : Fin 3) * 1 + 1 * 0 = 0; omega
    | ⟨1, _⟩ => show win0_2.index t (1 : Fin 3) * 128 + 1 * (j 1).val = win0_3.index t (1 : Fin 3) * 128 + 1 * (j 1).val; omega
    | ⟨2, _⟩ => show win0_2.index t (2 : Fin 3) * 4096 + 1 * (j 2).val = win0_3.index t (2 : Fin 3) * 4096 + 1 * (j 2).val; omega
  rw [h0, h1, h2]

/-- An entry of the output array is in point `t`'s block iff each coordinate is in the block's range on its axis. -/
theorem mem_blk (t : Fin cfg0.N) (i : S3x4096x4096.Idx) :
    i ∈ ((cfg0.win 3).blk t).view.set ↔ ∀ a : Fin 3, win0_3.index t a * S3x128x4096.size a ≤ (i a).val
      ∧ (i a).val < win0_3.index t a * S3x128x4096.size a + S3x128x4096.size a := by
  show i ∈ ((View.whole main_v3).slice (win0_3.rect t)).set ↔ _
  rw [View.set_slice_whole, Rect.mem_set_unit]
  exact Iff.rfl

/-- Every entry is in the block of the point whose strip holds its row. -/
theorem cover (i : S3x4096x4096.Idx) :
    ∃ t : Fin cfg0.N, (cfg0.win 3).flush t = true ∧ i ∈ ((cfg0.win 3).blk t).view.set := by
  have hi0 : (i 0).val < 3 := (i 0).isLt
  have hi1 : (i 1).val < 4096 := (i 1).isLt
  have hi2 : (i 2).val < 4096 := (i 2).isLt
  obtain ⟨t, ht⟩ := idx_onto ⟨(i 1).val / 128, by omega⟩
  obtain ⟨e0, e2, -⟩ := idx_facts t
  have q1 : win0_3.index t (1 : Fin 3) = (i 1).val / 128 := ht
  refine ⟨t, flush0_3 t, ?_⟩
  rw [mem_blk]
  intro a
  match a with
  | ⟨0, _⟩ =>
    show win0_3.index t (0 : Fin 3) * 3 ≤ (i 0).val ∧ (i 0).val < win0_3.index t (0 : Fin 3) * 3 + 3
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 4096 ≤ (i 2).val ∧ (i 2).val < win0_3.index t (2 : Fin 3) * 4096 + 4096
    omega

/-- The output array after the region. -/
theorem final (c : Dev nD) :
    (dats m 0 c).arrAt 3 cfg0.N = planes (V m c main_v0) (V m c main_v1) (V m c main_v2) :=
  (dats m 0 c).arrAt_eq_of_cover 3 _ (fun t _ => flushed_eq m c t) cover

end Cert.KernelIdeal.PlanesValue

end
-- ==== Proof.Host.lean ====
/-
  The kernel program's lines around the region.

  Before the region the program views each argument without its leading unit axis (three changes of view) and
  copies the first of them into the buffer the region writes; after the region it broadcasts that buffer along a
  new leading unit axis into the result.  So the region is entered with the three arguments unbatched, and the
  result is the region's output array with the batch axis put back.
-/
import proofs.«173994_j57543971831865_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The region finds the first argument without its batch axis, -/
theorem entry_x (c : Dev nD) :
    (V m c main_v0 : S3x4096x4096.Idx → Elt F .f32)
      = shapeCast S3x4096x4096 (m ((c.tc : Thread nD τ).loc main_arg0)) shapeCasts_S1x3x4096x4096_S3x4096x4096 := by
  show StableHlo.after hostOps0 (fun b => m (c, b)) (Proc.devRef .tc main_v0) = _
  after_results
  rfl

/-- the second likewise, -/
theorem entry_k (c : Dev nD) :
    (V m c main_v1 : S1x4096x4096.Idx → Elt F .f32)
      = shapeCast S1x4096x4096 (m ((c.tc : Thread nD τ).loc main_arg1)) shapeCasts_S1x1x4096x4096_S1x4096x4096 := by
  show StableHlo.after hostOps0 (fun b => m (c, b)) (Proc.devRef .tc main_v1) = _
  after_results
  rfl

/-- and the third. -/
theorem entry_p (c : Dev nD) :
    (V m c main_v2 : S1x4096x4096.Idx → Elt F .f32)
      = shapeCast S1x4096x4096 (m ((c.tc : Thread nD τ).loc main_arg2)) shapeCasts_S1x1x4096x4096_S1x4096x4096 := by
  show StableHlo.after hostOps0 (fun b => m (c, b)) (Proc.devRef .tc main_v2) = _
  after_results
  rfl

/-- The program's result: the region's output array, a batch axis put in front. -/
theorem result (c : Dev nD) :
    (Pipeline.afterTail₀ cfgs (dats m) 0 (V0 m) [hostOps1] c main_v4 : S1x3x4096x4096.Idx → Elt F .f32)
      = broadcastInDim S1x3x4096x4096 ![1, 2, 3] bcast_S3x4096x4096_S1x3x4096x4096_1_2_3 ((dats m 0 c).arrAt 3 cfg0.N) := by
  unfold Pipeline.afterTail₀
  show StableHlo.after hostOps1 _ (Proc.devRef .tc main_v4) = _
  after_results
  exact congrArg _ (Pipeline.withArrays_arr spec0 launch0.win.arr_inj c _ _ 3)

end Cert.KernelIdeal.HostValue

end
-- ==== Proof.Batch.lean ====
/-
  The unit batch axis.

  The kernel's program drops the leading unit axis of its three arguments before the region and puts it back on the
  result after it.  Dropping it is a change of view that reads entry (0, c, h, w) at (c, h, w); putting it back
  is a broadcast along a new axis of extent one, which reads (c, h, w) at (0, c, h, w).  Between the two sits
  `SaltPepper.planes`, so the whole is `SaltPepper.image`.
-/
import proofs.«173994_j57543971831865_2_alg».proof.Proof.Spec
import Idealize.ShloMosaic.Lib.Pipeline.Value

noncomputable section

namespace Cert.SaltPepper

open Idealize.ShloMosaic

variable {F : FTy → Type} [FloatOps F]

/-- An image entry is batch 0 followed by its other three coordinates. -/
theorem Img.cons_drop (i : Img.Idx) : (Fin.cons ⟨0, Nat.one_pos⟩ (Img.drop i) : Img.Idx) = i := by
  funext a
  apply Fin.ext
  match a with
  | ⟨0, _⟩ =>
    show 0 = (i 0).val
    have h : (i 0).val < 1 := (i 0).isLt
    omega
  | ⟨1, _⟩ => rfl
  | ⟨2, _⟩ => rfl
  | ⟨3, _⟩ => rfl

/-- The same for an entry of a one-plane map. -/
theorem Map.cons_drop (i : Map.Idx) : (Fin.cons ⟨0, Nat.one_pos⟩ (Map.drop i) : Map.Idx) = i := by
  funext a
  apply Fin.ext
  match a with
  | ⟨0, _⟩ =>
    show 0 = (i 0).val
    have h : (i 0).val < 1 := (i 0).isLt
    omega
  | ⟨1, _⟩ => rfl
  | ⟨2, _⟩ => rfl
  | ⟨3, _⟩ => rfl

/-- The image viewed without its batch axis, at an entry without its batch coordinate, is the image at the entry. -/
theorem unbatch_img (x : Img.Idx → F .f32) (h : Img.ShapeCasts Planes) (i : Img.Idx) :
    shapeCast Planes x h (Img.drop i) = x i :=
  (shapeCast_dropUnit_apply ![3, 4096, 4096] x h (Img.drop i)).trans (congrArg x (Img.cons_drop i))

/-- The same for a one-plane map. -/
theorem unbatch_map (k : Map.Idx → F .f32) (h : Map.ShapeCasts Plane) (i : Map.Idx) :
    shapeCast Plane k h (Map.drop i) = k i :=
  (shapeCast_dropUnit_apply ![1, 4096, 4096] k h (Map.drop i)).trans (congrArg k (Map.cons_drop i))

/-- Three planes given a batch axis, read at an image entry, are the planes at the entry without its batch coordinate. -/
theorem rebatch (u : Planes.Idx → F .f32) (h : Planes.BroadcastsInDim Img (![1, 2, 3] : Fin 3 → Fin 4)) (i : Img.Idx) :
    broadcastInDim Img ![1, 2, 3] h u i = u (Img.drop i) :=
  (congrArg (broadcastInDim Img ![1, 2, 3] h u) (Img.cons_drop i).symm).trans
    (broadcastInDim_cons_zero (d := ![3, 4096, 4096]) (fun a => by fin_cases a <;> rfl) h u (fun a => by fin_cases a <;> decide) (Img.drop i))

/-- Drop the batch axis of the three arrays, compute the three planes, put the batch axis back: the image. -/
theorem image_of_planes (x : Img.Idx → F .f32) (k p : Map.Idx → F .f32) (hx : Img.ShapeCasts Planes) (hk : Map.ShapeCasts Plane)
    (hb : Planes.BroadcastsInDim Img (![1, 2, 3] : Fin 3 → Fin 4)) :
    broadcastInDim Img ![1, 2, 3] hb (planes (shapeCast Planes x hx) (shapeCast Plane k hk) (shapeCast Plane p hk))
      = image x k p := by
  funext i
  rw [rebatch]
  exact planes_drop x k p _ _ _ (unbatch_img x hx) (unbatch_map k hk) (unbatch_map p hk) i

end Cert.SaltPepper

end
-- ==== Proof.KernelRun.lean ====
/-
  The kernel program's run, with its result named.

  Every execution of the kernel's program terminates with the arguments unchanged (the frame run) and the result
  at what its lines compute: the arguments without their batch axes, the region's `SaltPepper.planes` of them, the
  batch axis put back — that is, `SaltPepper.image` of the arguments.
-/
import proofs.«173994_j57543971831865_2_alg».proof.Proof.Planes
import proofs.«173994_j57543971831865_2_alg».proof.Proof.Host
import proofs.«173994_j57543971831865_2_alg».proof.Proof.Batch

noncomputable section

namespace Cert.KernelIdeal.KernelValue

open Cert.KernelIdeal Cert.KernelIdeal.Gen Cert.SaltPepper Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the program's last line leaves in the result: the specification of the arguments. -/
theorem value (c : Dev nD) :
    Pipeline.afterTail₀ cfgs (dats m) 0 (V0 m) [hostOps1] c main_v4
      = image (m ((c.tc : Thread nD τ).loc main_arg0)) (m ((c.tc : Thread nD τ).loc main_arg1))
          (m ((c.tc : Thread nD τ).loc main_arg2)) := by
  rw [HostValue.result, PlanesValue.final, HostValue.entry_x, HostValue.entry_k, HostValue.entry_p]
  exact image_of_planes _ _ _ _ _ _

/-- The run: the result at the specification, the arguments as launched. -/
theorem run : θ_run defs (onTc (τ := τ) (main (F := F))) ⟨m, fun _ => 0, ρ⟩ fun r => ∀ c : Dev nD,
      r.2.mem ((c.tc : Thread nD τ).loc main_v4)
        = image (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KernelValue

end
-- ==== Proof.Reference.lean ====
/-
  The reference computes `SaltPepper.image`.

  Its program broadcasts the two one-plane maps along the plane axis, adds the first to the image, takes the
  maximum with a broadcast zero and adds the second: read at an entry, each broadcast map is the map at the
  entry's row and column and the broadcast zero is zero, so the result at the entry is `SaltPepper.pixel` of the
  three values there.
-/
import proofs.«173994_j57543971831865_2_alg».proof.Proof.Gen.ReferenceIdeal.Read
import proofs.«173994_j57543971831865_2_alg».proof.Proof.Spec

noncomputable section

namespace Cert.ReferenceIdeal.RefValue

open Cert.ReferenceIdeal Cert.ReferenceIdeal.Read Cert.SaltPepper Idealize.ShloMosaic

variable {F : FTy → Type} [FloatOps F]

/-- The reference's last stage is the specification, entry by entry. -/
theorem result_eq (x : S1x3x4096x4096.Idx → Elt F .f32) (k p : S1x1x4096x4096.Idx → Elt F .f32) :
    val_main_v4 (F := F) x k p = image x k p := by
  funext i
  rw [val_main_v4_apply, val_main_v2_apply, val_main_v1_apply, val_main_v0_apply, val_main_v3_apply,
    val_main_call0_v0_apply, val_main_call0_cst_apply]
  rfl

end Cert.ReferenceIdeal.RefValue

end
-- ==== Proof.lean ====
/-
  The kernel and its reference compute one function, `SaltPepper.image` (Proof/Spec.lean): every entry of a three-plane
  array `x` becomes `max (x + k, 0) + p`, with the one-plane maps `k` and `p` read at the entry's row and column.

  The reference does it in five whole-array lines (Proof/Reference.lean).  The kernel's program drops the unit batch
  axis of the three arrays, runs a 2 × 16 grid whose point (g, s) computes rows 128·(16·g + s) … + 127 of the three
  planes, one plane at a time (Proof/Strip.lean: one strip; Proof/Planes.lean: the 32 strips cover the planes), and
  puts the batch axis back (Proof/Host.lean, Proof/Batch.lean, Proof/KernelRun.lean).  Both do the same operations
  on the same entries in the same order — an addition, a maximum with the zero word, an addition — so the two results
  are equal entry by entry whatever the arithmetic, in particular on the extended reals; nothing is used of the
  inputs, not even that they are finite.  The idealization rewrote no operation of the kernel, so there is nothing
  to preserve; the three frames are the generated runs.
-/
import proofs.«173994_j57543971831865_2_alg».proof.Defs
import proofs.«173994_j57543971831865_2_alg».proof.Proof.Gen.Kernel
import proofs.«173994_j57543971831865_2_alg».proof.Proof.Gen.Kernel.Skeleton
import proofs.«173994_j57543971831865_2_alg».proof.Proof.Gen.Kernel.Launch
import proofs.«173994_j57543971831865_2_alg».proof.Proof.Gen.Kernel.Points
import proofs.«173994_j57543971831865_2_alg».proof.Proof.Gen.Kernel.Frame
import proofs.«173994_j57543971831865_2_alg».proof.Proof.Gen.KernelIdeal
import proofs.«173994_j57543971831865_2_alg».proof.Proof.Gen.KernelIdeal.Skeleton
import proofs.«173994_j57543971831865_2_alg».proof.Proof.Gen.KernelIdeal.Launch
import proofs.«173994_j57543971831865_2_alg».proof.Proof.Gen.KernelIdeal.Points
import proofs.«173994_j57543971831865_2_alg».proof.Proof.Gen.KernelIdeal.Frame
import proofs.«173994_j57543971831865_2_alg».proof.Proof.Gen.ReferenceIdeal
import proofs.«173994_j57543971831865_2_alg».proof.Proof.Gen.Pre_finite_inputs
import proofs.«173994_j57543971831865_2_alg».proof.Proof.Gen.ReferenceIdeal.Run
import proofs.«173994_j57543971831865_2_alg».proof.Proof.Gen.ReferenceIdeal.Read
import proofs.«173994_j57543971831865_2_alg».proof.Proof.KernelRun
import proofs.«173994_j57543971831865_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization, -/
theorem frame_kernel_ideal : Cert.frame_KernelIdeal := fun m ρ _ => Cert.KernelIdeal.Gen.frame m ρ

/-- and the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the three arguments, both programs end with their results at
    `SaltPepper.image` of the arguments. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
